-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1x4096 : Shape := ⟨3, ![32768, 1, 4096]⟩
abbrev S64x1x256 : Shape := ⟨3, ![64, 1, 256]⟩
abbrev S32768x64 : Shape := ⟨2, ![32768, 64]⟩
abbrev S_ : Shape := ⟨0, ![]⟩

class Facts : Prop where
  bcast_S_S32768x1x4096 : S_.BroadcastsInDim S32768x1x4096 (![] : Fin 0 → Fin S32768x1x4096.rank)
  reducesTo_S32768x1x4096_S_d0_1_2 : S32768x1x4096.ReducesTo [0, 1, 2] S_
  h_S_ : 0 < S_.numel
  bcast_S_S64x1x256 : S_.BroadcastsInDim S64x1x256 (![] : Fin 0 → Fin S64x1x256.rank)
  reducesTo_S64x1x256_S_d0_1_2 : S64x1x256.ReducesTo [0, 1, 2] S_
  bcast_S_S32768x64 : S_.BroadcastsInDim S32768x64 (![] : Fin 0 → Fin S32768x64.rank)
  reducesTo_S32768x64_S_d0_1 : S32768x64.ReducesTo [0, 1] S_

variable [Facts]

def fn {F : FTy → Type} [FloatOps F] (main_arg0 : FVec F S32768x1x4096 .f32) (main_arg1 : FVec F S64x1x256 .f32) (main_arg2 : FVec F S32768x64 .f32) : IVec S_ 1 :=
  let main_v0 : FVec F S32768x1x4096 .f32 := Host.absf main_arg0
  let main_cst : FVec F S_ .f32 := constant S_ .f32 0x7F800000#32
  let main_v1 : FVec F S32768x1x4096 .f32 := broadcastInDim S32768x1x4096 ![] bcast_S_S32768x1x4096 main_cst
  let main_v2 : IVec S32768x1x4096 1 := cmpf .olt main_v0 main_v1
  let main_c : IVec S_ 1 := constantI S_ 1 1#1
  let main_v3 : IVec S_ 1 := (fun x v => Host.reduce IntOp.andi x v reducesTo_S32768x1x4096_S_d0_1_2 h_S_) main_v2 main_c
  let main_v4 : FVec F S64x1x256 .f32 := Host.absf main_arg1
  let main_cst_0 : FVec F S_ .f32 := constant S_ .f32 0x7F800000#32
  let main_v5 : FVec F S64x1x256 .f32 := broadcastInDim S64x1x256 ![] bcast_S_S64x1x256 main_cst_0
  let main_v6 : IVec S64x1x256 1 := cmpf .olt main_v4 main_v5
  let main_c_1 : IVec S_ 1 := constantI S_ 1 1#1
  let main_v7 : IVec S_ 1 := (fun x v => Host.reduce IntOp.andi x v reducesTo_S64x1x256_S_d0_1_2 h_S_) main_v6 main_c_1
  let main_v8 : IVec S_ 1 := andi main_v3 main_v7
  let main_v9 : FVec F S32768x64 .f32 := Host.absf main_arg2
  let main_cst_2 : FVec F S_ .f32 := constant S_ .f32 0x7F800000#32
  let main_v10 : FVec F S32768x64 .f32 := broadcastInDim S32768x64 ![] bcast_S_S32768x64 main_cst_2
  let main_v11 : IVec S32768x64 1 := cmpf .olt main_v9 main_v10
  let main_c_3 : IVec S_ 1 := constantI S_ 1 1#1
  let main_v12 : IVec S_ 1 := (fun x v => Host.reduce IntOp.andi x v reducesTo_S32768x64_S_d0_1 h_S_) main_v11 main_c_3
  let main_v13 : IVec S_ 1 := andi main_v8 main_v12
  main_v13
-- ==== Kernel.lean ====
abbrev S32768x1x4096 : Shape := ⟨3, ![32768, 1, 4096]⟩
abbrev S64x1x256 : Shape := ⟨3, ![64, 1, 256]⟩
abbrev S32768x64 : Shape := ⟨2, ![32768, 64]⟩
abbrev S32768x16x256 : Shape := ⟨3, ![32768, 16, 256]⟩
abbrev S64x256 : Shape := ⟨2, ![64, 256]⟩
abbrev S1024x16x256 : Shape := ⟨3, ![1024, 16, 256]⟩
abbrev S1024x64 : Shape := ⟨2, ![1024, 64]⟩
abbrev S1024x256 : Shape := ⟨2, ![1024, 256]⟩
abbrev S1024x1x256 : Shape := ⟨3, ![1024, 1, 256]⟩

abbrev nBuf : Space → Nat
  | .hbm => 6
  | .vmem => 7
  | .smem => 0
  | _ => 0

abbrev bufTy : (tb : Table) → Fin (tcTables nBuf tb) → BufTy
  | .hbm, ⟨0, _⟩ => ⟨S32768x1x4096, .f32⟩
  | .hbm, ⟨1, _⟩ => ⟨S64x1x256, .f32⟩
  | .hbm, ⟨2, _⟩ => ⟨S32768x64, .f32⟩
  | .hbm, ⟨3, _⟩ => ⟨S32768x16x256, .f32⟩
  | .hbm, ⟨4, _⟩ => ⟨S64x256, .f32⟩
  | .hbm, ⟨5, _⟩ => ⟨S32768x64, .f32⟩
  | .local _ .vmem, ⟨0, _⟩ => ⟨S1024x16x256, .f32⟩
  | .local _ .vmem, ⟨1, _⟩ => ⟨S1024x16x256, .f32⟩
  | .local _ .vmem, ⟨2, _⟩ => ⟨S64x256, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | _, _ => ⟨S32768x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32768x1x4096_S32768x16x256 : S32768x1x4096.ShapeCasts S32768x16x256
  shapeCasts_S64x1x256_S64x256 : S64x1x256.ShapeCasts S64x256
  inb_S1024x16x256_S1024x1x256_0_0_0 : ∀ a, (![0, 0, 0] : Fin 3 → Nat) a + S1024x1x256.size a ≤ S1024x16x256.size a
  h_S1024x1x256 : 0 < S1024x1x256.numel
  shapeCasts_S1024x1x256_S1024x256 : S1024x1x256.ShapeCasts S1024x256
  inb_S1024x16x256_S1024x1x256_0_1_0 : ∀ a, (![0, 1, 0] : Fin 3 → Nat) a + S1024x1x256.size a ≤ S1024x16x256.size a
  inb_S1024x16x256_S1024x1x256_0_2_0 : ∀ a, (![0, 2, 0] : Fin 3 → Nat) a + S1024x1x256.size a ≤ S1024x16x256.size a
  inb_S1024x16x256_S1024x1x256_0_3_0 : ∀ a, (![0, 3, 0] : Fin 3 → Nat) a + S1024x1x256.size a ≤ S1024x16x256.size a
  inb_S1024x16x256_S1024x1x256_0_4_0 : ∀ a, (![0, 4, 0] : Fin 3 → Nat) a + S1024x1x256.size a ≤ S1024x16x256.size a
  inb_S1024x16x256_S1024x1x256_0_5_0 : ∀ a, (![0, 5, 0] : Fin 3 → Nat) a + S1024x1x256.size a ≤ S1024x16x256.size a
  inb_S1024x16x256_S1024x1x256_0_6_0 : ∀ a, (![0, 6, 0] : Fin 3 → Nat) a + S1024x1x256.size a ≤ S1024x16x256.size a
  inb_S1024x16x256_S1024x1x256_0_7_0 : ∀ a, (![0, 7, 0] : Fin 3 → Nat) a + S1024x1x256.size a ≤ S1024x16x256.size a
  inb_S1024x16x256_S1024x1x256_0_8_0 : ∀ a, (![0, 8, 0] : Fin 3 → Nat) a + S1024x1x256.size a ≤ S1024x16x256.size a
  inb_S1024x16x256_S1024x1x256_0_9_0 : ∀ a, (![0, 9, 0] : Fin 3 → Nat) a + S1024x1x256.size a ≤ S1024x16x256.size a
  inb_S1024x16x256_S1024x1x256_0_10_0 : ∀ a, (![0, 10, 0] : Fin 3 → Nat) a + S1024x1x256.size a ≤ S1024x16x256.size a
  inb_S1024x16x256_S1024x1x256_0_11_0 : ∀ a, (![0, 11, 0] : Fin 3 → Nat) a + S1024x1x256.size a ≤ S1024x16x256.size a
  inb_S1024x16x256_S1024x1x256_0_12_0 : ∀ a, (![0, 12, 0] : Fin 3 → Nat) a + S1024x1x256.size a ≤ S1024x16x256.size a
  inb_S1024x16x256_S1024x1x256_0_13_0 : ∀ a, (![0, 13, 0] : Fin 3 → Nat) a + S1024x1x256.size a ≤ S1024x16x256.size a
  inb_S1024x16x256_S1024x1x256_0_14_0 : ∀ a, (![0, 14, 0] : Fin 3 → Nat) a + S1024x1x256.size a ≤ S1024x16x256.size a
  inb_S1024x16x256_S1024x1x256_0_15_0 : ∀ a, (![0, 15, 0] : Fin 3 → Nat) a + S1024x1x256.size a ≤ S1024x16x256.size a
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1024x64_S1024x64_0_0 : ∀ a, (![0, 0] : Fin 2 → Nat) a + S1024x64.size a ≤ S1024x64.size a
  h_S1024x64 : 0 < S1024x64.numel
  dot_S1024x256_S64x256_S1024x64_1_1_0_0_n_n_wf : DotDims.WF S1024x256 S64x256 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16x256.size a ≤ S32768x16x256.size a
  hwx0_0 : ∀ i : grid0.Coords, EltTy.bits .f32 = 32 ∨ (Rect.block (s := S32768x16x256) S1024x16x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S32768x64.size a
  hwx0_2 : ∀ i : grid0.Coords, EltTy.bits .f32 = 32 ∨ (Rect.block (s := S32768x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S32768x64.size a
  hwx0_3 : ∀ i : grid0.Coords, EltTy.bits .f32 = 32 ∨ (Rect.block (s := S32768x64) S1024x64.size (cc0_transform_3 i) (hinb0_3 i)).WholeWords (EltTy.packing .f32)

variable [Facts₀]

def dot_S1024x256_S64x256_S1024x64_1_1_0_0_n_n : DotDims S1024x256 S64x256 S1024x64 where
  lhsContracting := [1]
  rhsContracting := [1]
  lhsNonContracting := [0]
  rhsNonContracting := [0]
  lhsBatch := []
  rhsBatch := []
  wf := dot_S1024x256_S64x256_S1024x64_1_1_0_0_n_n_wf

abbrev win0_0 : Pipeline.Window sig grid0 :=
  Pipeline.Window.ofSpec (Memref.whole main_v0) S1024x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1x4096 : Shape := ⟨3, ![32768, 1, 4096]⟩
abbrev S64x1x256 : Shape := ⟨3, ![64, 1, 256]⟩
abbrev S32768x64 : Shape := ⟨2, ![32768, 64]⟩
abbrev S32768x16x256 : Shape := ⟨3, ![32768, 16, 256]⟩
abbrev S_ : Shape := ⟨0, ![]⟩
abbrev S32768x256 : Shape := ⟨2, ![32768, 256]⟩
abbrev S64x256 : Shape := ⟨2, ![64, 256]⟩

abbrev nBuf : Space → Nat
  | .hbm => 9
  | .vmem => 0
  | .smem => 0
  | _ => 0

abbrev bufTy : (tb : Table) → Fin (tcTables nBuf tb) → BufTy
  | .hbm, ⟨0, _⟩ => ⟨S32768x1x4096, .f32⟩
  | .hbm, ⟨1, _⟩ => ⟨S64x1x256, .f32⟩
  | .hbm, ⟨2, _⟩ => ⟨S32768x64, .f32⟩
  | .hbm, ⟨3, _⟩ => ⟨S32768x16x256, .f32⟩
  | .hbm, ⟨4, _⟩ => ⟨S_, .f32⟩
  | .hbm, ⟨5, _⟩ => ⟨S32768x256, .f32⟩
  | .hbm, ⟨6, _⟩ => ⟨S64x256, .f32⟩
  | .hbm, ⟨7, _⟩ => ⟨S32768x64, .f32⟩
  | .hbm, ⟨8, _⟩ => ⟨S32768x64, .f32⟩
  | _, _ => ⟨S32768x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  shapeCasts_S32768x1x4096_S32768x16x256 : S32768x1x4096.ShapeCasts S32768x16x256
  reducesTo_S32768x16x256_S32768x256_d1 : S32768x16x256.ReducesTo [1] S32768x256
  h_S_ : 0 < S_.numel
  shapeCasts_S64x1x256_S64x256 : S64x1x256.ShapeCasts S64x256
  dot_S32768x256_S64x256_S32768x64_1_1_0_0_n_n_wf : DotDims.WF S32768x256 S64x256 S32768x64 [1] [1] [0] [0] [] []

variable [Facts₀]

def dot_S32768x256_S64x256_S32768x64_1_1_0_0_n_n : DotDims S32768x256 S64x256 S32768x64 where
  lhsContracting := [1]
  rhsContracting := [1]
  lhsNonContracting := [0]
  rhsNonContracting := [0]
  lhsBatch := []
  rhsBatch := []
  wf := dot_S32768x256_S64x256_S32768x64_1_1_0_0_n_n_wf

class Facts : Prop extends Facts₀ where

variable [Facts]
-- ==== Proof.PatchGate.lean ====
/-
  The routing gate as one function of three arrays.

  Rows `b < 32768`, patches `p < 16`, lanes `k < 256`, outputs `o < 64`. With the input already laid out as
  `X[b, p, k]` (row `b` cut into its 16 disjoint patches of 256 lanes) and the weights as `W[o, k]`, the gate is

      gate X W N [b, o] = (∑ k, (∑ p, X[b, p, k]) · W[o, k]) + N[b, o]

  on the extended reals: the patches of a row are summed lane by lane, the patch sum is contracted with every weight
  row, and the tie-breaking noise is added. Addition of extended reals is a commutative monoid, so the order in which
  the sixteen patches are added does not matter: `chain16` says the left-nested chain of sixteen additions that starts
  from a value `z` is `z` plus the sum over the patches.
-/
import Idealize.ShloMosaic.PureOps.Ideal
import Idealize.ShloMosaic.Lib.ValueIdx

noncomputable section

open scoped BigOperators

namespace Cert.PatchGate

open Idealize.ShloMosaic Idealize.ShloMosaic.ValueIdx

/-- The input seen as rows × patches × lanes. -/
abbrev SRows : Shape := ⟨3, ![32768, 16, 256]⟩
/-- The weights as outputs × lanes. -/
abbrev SWeights : Shape := ⟨2, ![64, 256]⟩
/-- The result, and the noise: rows × outputs. -/
abbrev SGate : Shape := ⟨2, ![32768, 64]⟩

/-- The gate: per row and output, the lane-wise patch sum contracted with the output's weight row, plus the noise. -/
def gate (X : SRows.Idx → EReal) (W : SWeights.Idx → EReal) (N : SGate.Idx → EReal) : SGate.Idx → EReal :=
  fun i => (∑ k : Fin 256, (∑ p : Fin 16, X (ix3 (i 0) p k)) * W (ix2 (i 1) k)) + N i

/-- Sixteen additions nested to the left, starting from `z`, add up to `z` plus the sum of the sixteen terms. -/
theorem chain16 {M : Type*} [AddCommMonoid M] (z : M) (g : Fin 16 → M) :
    z + g 0 + g 1 + g 2 + g 3 + g 4 + g 5 + g 6 + g 7 + g 8 + g 9 + g 10 + g 11 + g 12 + g 13 + g 14 + g 15
      = z + ∑ p : Fin 16, g p := by
  simp only [Fin.sum_univ_castSucc, Fin.sum_univ_zero, zero_add, ← add_assoc]
  rfl

end Cert.PatchGate

end
-- ==== Proof.ReferenceGate.lean ====
/-
  The reference computes the gate.

  The reference reshapes the input to rows × patches × lanes and the weights to outputs × lanes, sums the patch axis
  starting from the constant zero, contracts the lane axis of the patch sum with the lane axis of the weights, and
  adds the noise. Read at an index (row `b`, output `o`) that is

      (∑ k, (0 + ∑ p, X[b, p, k]) · W[o, k]) + N[b, o],

  which is `gate` of the two reshaped arrays and the noise once the zero is dropped.
-/
import proofs.«151530_j9844065042868_2_alg».proof.Proof.Gen.ReferenceIdeal.Read
import proofs.«151530_j9844065042868_2_alg».proof.Proof.PatchGate

noncomputable section

open scoped BigOperators

namespace Cert.ReferenceGate

open Cert.ReferenceIdeal Cert.ReferenceIdeal.Gen Cert.ReferenceIdeal.Read Cert.PatchGate
open Idealize.ShloMosaic Idealize.ShloMosaic.ValueIdx

/-- The patch axis of the reduction, read at the lane-contraction's left index: row `b`, patch `p`, lane `k`. -/
theorem patch_index (i : S32768x64.Idx) (k : Fin 256) (p : Fin 16) :
    idx_main_v1 (lidx_main_v3 i k) p = ix3 (i 0) p k :=
  funext fun a => Fin.ext (by match a with | ⟨0, _⟩ => rfl | ⟨1, _⟩ => rfl | ⟨2, _⟩ => rfl)

/-- The lane-contraction's right index: output `o`, lane `k`. -/
theorem weight_index (i : S32768x64.Idx) (k : Fin 256) : ridx_main_v3 i k = ix2 (i 1) k :=
  funext fun a => Fin.ext (by match a with | ⟨0, _⟩ => rfl | ⟨1, _⟩ => rfl)

/-- The reference's result is the gate of the reshaped input, the reshaped weights and the noise. -/
theorem result_eq (x0 : (⟨S32768x1x4096, .f32⟩ : BufTy).Contents (Elt Ideal)) (x1 : (⟨S64x1x256, .f32⟩ : BufTy).Contents (Elt Ideal))
    (x2 : (⟨S32768x64, .f32⟩ : BufTy).Contents (Elt Ideal)) :
    val_main_v4 (F := Ideal) x0 x1 x2 = gate (val_main_v0 (F := Ideal) x0) (val_main_v2 (F := Ideal) x1) x2 := by
  funext i
  rw [val_main_v4_apply, val_main_v3_apply]
  simp only [val_main_v1_apply, val_main_cst_apply, patch_index, weight_index]
  show (∑ k : Fin 256, (Ideal.ofBits .f32 0x00000000#32 + _) * _) + _ = _
  simp only [Ideal.ofBits_zero_f32, zero_add]
  rfl

end Cert.ReferenceGate

end
-- ==== Proof.BlockGate.lean ====
/-
  What one grid step leaves in its output block.

  A grid step holds a block of 1024 rows: the rows' input as [1024, 16, 256] (row, patch, lane), all of the weights
  [64, 256], and the rows' noise [1024, 64]. Its body adds the sixteen patch slabs `x[:, p, :]` one after the other onto a
  zero slab, multiplies the resulting [1024, 256] patch sum with the transposed weights into a zero accumulator, adds the
  noise, and stores the [1024, 64] result over the whole output block. Read at row `r` and output `o` of the block:

      (∑ k, (∑ p, x[r, p, k]) · w[o, k]) + noise[r, o].
-/
import proofs.«151530_j9844065042868_2_alg».proof.Proof.Gen.KernelIdeal.Frame
import proofs.«151530_j9844065042868_2_alg».proof.Proof.PatchGate
import Idealize.ShloMosaic.Lib.Pipeline.Value
import Idealize.ShloMosaic.Lib.ValueIdx
import Idealize.ShloMosaic.PureOps.Ideal.Laws

noncomputable section

open scoped BigOperators

namespace Cert.BlockGate

open Cert.KernelIdeal Cert.KernelIdeal.Gen Cert.PatchGate
open Idealize.ShloMosaic Idealize.ShloMosaic.ValueIdx

/-- The offsets of a rectangle that starts at the origin of a rank-2 buffer. -/
theorem origin2 : (![0, 0] : Fin 2 → Nat) = fun _ => 0 := funext fun a => by fin_cases a <;> rfl

/-- One patch slab: the load of patch `q` of the block, [1024, 1, 256], with its unit axis dropped, read at row `r` and
    lane `k`, is the block's entry (r, q, k). -/
theorem slab_apply (x : Vec Ideal S1024x16x256 .f32) (q : Nat) (hq : q < 16)
    (inb : ∀ a, (![0, q, 0] : Fin 3 → Nat) a + S1024x1x256.size a ≤ S1024x16x256.size a) (r : Fin 1024) (k : Fin 256) :
    shapeCast S1024x256 (View.ld x (Rect.unit (s := S1024x16x256) ![0, q, 0] S1024x1x256.size inb)) shapeCasts_S1024x1x256_S1024x256 (ix2 r k)
      = x (ix3 r ⟨q, hq⟩ k) := by
  refine (shapeCast_apply _ shapeCasts_S1024x1x256_S1024x256 (ix2 r k) (ix3 r (0 : Fin 1) k) ?_).trans ?_
  · rewrite [Shape.rowMajor_val_three, Shape.rowMajor_val_two]
    show ((r.val * 1 + 0) * 256 + k.val) = r.val * 256 + k.val
    omega
  · show x _ = x _
    refine congrArg x (funext fun a => Fin.ext ?_)
    match a with
    | ⟨0, _⟩ => show 0 + 1 * r.val = r.val; omega
    | ⟨1, _⟩ => show q + 1 * 0 = q; omega
    | ⟨2, _⟩ => show 0 + 1 * k.val = k.val; omega

/-- The left operand of the lane contraction keeps the result's row … -/
theorem lhs_row (i : S1024x64.Idx) (q : dot_S1024x256_S64x256_S1024x64_1_1_0_0_n_n.contr.Idx) :
    (dot_S1024x256_S64x256_S1024x64_1_1_0_0_n_n.lhsIdx i q 0).val = (i 0).val := by
  unfold DotDims.lhsIdx
  rw [dif_neg (show ¬(0 : Fin S1024x256.rank) ∈ dot_S1024x256_S64x256_S1024x64_1_1_0_0_n_n.lhsBatch by decide),
    dif_pos (show (0 : Fin S1024x256.rank) ∈ dot_S1024x256_S64x256_S1024x64_1_1_0_0_n_n.lhsNonContracting by decide)]
  rfl
/-- … and runs over the lanes; -/
theorem lhs_lane (i : S1024x64.Idx) (q : dot_S1024x256_S64x256_S1024x64_1_1_0_0_n_n.contr.Idx) :
    (dot_S1024x256_S64x256_S1024x64_1_1_0_0_n_n.lhsIdx i q 1).val = (q ⟨0, by decide⟩).val :=
  dot_S1024x256_S64x256_S1024x64_1_1_0_0_n_n.lhsIdx_val_of_single rfl i q
/-- the right operand keeps the result's output as its row … -/
theorem rhs_row (i : S1024x64.Idx) (q : dot_S1024x256_S64x256_S1024x64_1_1_0_0_n_n.contr.Idx) :
    (dot_S1024x256_S64x256_S1024x64_1_1_0_0_n_n.rhsIdx i q 0).val = (i 1).val := by
  unfold DotDims.rhsIdx
  rw [dif_neg (show ¬(0 : Fin S64x256.rank) ∈ dot_S1024x256_S64x256_S1024x64_1_1_0_0_n_n.rhsBatch by decide),
    dif_pos (show (0 : Fin S64x256.rank) ∈ dot_S1024x256_S64x256_S1024x64_1_1_0_0_n_n.rhsNonContracting by decide)]
  rfl
/-- … and runs over the lanes too. -/
theorem rhs_lane (i : S1024x64.Idx) (q : dot_S1024x256_S64x256_S1024x64_1_1_0_0_n_n.contr.Idx) :
    (dot_S1024x256_S64x256_S1024x64_1_1_0_0_n_n.rhsIdx i q 1).val = (q ⟨0, by decide⟩).val :=
  dot_S1024x256_S64x256_S1024x64_1_1_0_0_n_n.rhsIdx_val_of_single rfl i q

/-- The matrix product into a zero accumulator, read at row `r` and output `o`: the sum over the lanes of the patch sum's
    row `r` against the weights' row `o`. -/
theorem contract_apply (A : FVec Ideal S1024x256 .f32) (B : FVec Ideal S64x256 .f32) (r : Fin 1024) (o : Fin 64) :
    matmul dot_S1024x256_S64x256_S1024x64_1_1_0_0_n_n (some .fp32) A B (constant (F := Ideal) S1024x64 .f32 0x00000000#32) (ix2 r o)
      = ∑ k : Fin 256, A (ix2 r k) * B (ix2 o k) := by
  simp only [matmul]
  rw [Ideal.matmul_constant_zero_apply,
    ← Equiv.sum_comp (contrEquiv1 dot_S1024x256_S64x256_S1024x64_1_1_0_0_n_n 256 rfl rfl).symm]
  refine Finset.sum_congr rfl fun k _ => ?_
  have hk := contrEquiv1_symm_val dot_S1024x256_S64x256_S1024x64_1_1_0_0_n_n 256 rfl rfl k
  have el : dot_S1024x256_S64x256_S1024x64_1_1_0_0_n_n.lhsIdx (ix2 r o)
      ((contrEquiv1 dot_S1024x256_S64x256_S1024x64_1_1_0_0_n_n 256 rfl rfl).symm k) = ix2 r k :=
    funext fun a => Fin.ext (by
      match a with
      | ⟨0, _⟩ => exact lhs_row _ _
      | ⟨1, _⟩ => exact (lhs_lane _ _).trans hk)
  have er : dot_S1024x256_S64x256_S1024x64_1_1_0_0_n_n.rhsIdx (ix2 r o)
      ((contrEquiv1 dot_S1024x256_S64x256_S1024x64_1_1_0_0_n_n 256 rfl rfl).symm k) = ix2 o k :=
    funext fun a => Fin.ext (by
      match a with
      | ⟨0, _⟩ => exact rhs_row _ _
      | ⟨1, _⟩ => exact (rhs_lane _ _).trans hk)
  rw [el, er]

/-- The sixteen patch slabs added one after the other onto the zero slab, read at row `r` and lane `k`: the sum over
    the patches of the block's entries (r, p, k). -/
theorem patch_sum_apply (x : Vec Ideal S1024x16x256 .f32) (r : Fin 1024) (k : Fin 256) :
    k0_pay3 (k0_pay2 (View.ld x r0_0) (View.ld x r0_1) (View.ld x r0_2) (View.ld x r0_3) (View.ld x r0_4) (View.ld x r0_5) (View.ld x r0_6) (View.ld x r0_7))
        (View.ld x r0_8) (View.ld x r0_9) (View.ld x r0_10) (View.ld x r0_11) (View.ld x r0_12) (View.ld x r0_13) (View.ld x r0_14) (View.ld x r0_15) (ix2 r k)
      = ∑ p : Fin 16, x (ix3 r p k) := by
  unfold k0_pay3 k0_pay2
  simp only [addf_apply, broadcast_apply]
  rw [slab_apply x 0 (by decide) _ r k,
    slab_apply x 1 (by decide) _ r k,
    slab_apply x 2 (by decide) _ r k,
    slab_apply x 3 (by decide) _ r k,
    slab_apply x 4 (by decide) _ r k,
    slab_apply x 5 (by decide) _ r k,
    slab_apply x 6 (by decide) _ r k,
    slab_apply x 7 (by decide) _ r k,
    slab_apply x 8 (by decide) _ r k,
    slab_apply x 9 (by decide) _ r k,
    slab_apply x 10 (by decide) _ r k,
    slab_apply x 11 (by decide) _ r k,
    slab_apply x 12 (by decide) _ r k,
    slab_apply x 13 (by decide) _ r k,
    slab_apply x 14 (by decide) _ r k,
    slab_apply x 15 (by decide) _ r k]
  show Ideal.ofBits .f32 0x00000000#32 + _ + _ + _ + _ + _ + _ + _ + _ + _ + _ + _ + _ + _ + _ + _ + _ = _
  rw [Ideal.ofBits_zero_f32]
  exact (chain16 (0 : EReal) fun p => x (ix3 r p k)).trans (zero_add _)

/-- THE BLOCK: what a grid step's body leaves in its output block, read at row `r` and output `o`. -/
theorem block_apply (x : Vec Ideal S1024x16x256 .f32) (w : Vec Ideal S64x256 .f32) (n : Vec Ideal S1024x64 .f32)
    (r : Fin 1024) (o : Fin 64) :
    out0_3 (F := Ideal) x w n (ix2 r o)
      = (∑ k : Fin 256, (∑ p : Fin 16, x (ix3 r p k)) * w (ix2 o k)) + n (ix2 r o) := by
  unfold out0_3
  rw [View.canon_unit_zero origin2]
  simp only [View.ld_unit_zero (S := S64x256) origin2, View.ld_unit_zero (S := S1024x64) origin2]
  unfold k0_pay1 k0_pay4
  rw [addf_apply, contract_apply, shapeCast_self]
  simp only [patch_sum_apply]

end Cert.BlockGate

end
-- ==== Proof.ArrayGate.lean ====
/-
  From the blocks to the whole array.

  The 32 grid steps each own 1024 consecutive rows: step `t` reads rows `1024 t … 1024 t + 1023` of the input (already
  reshaped to rows × patches × lanes by the first host operation) and of the noise, all of the weights (reshaped to
  outputs × lanes by the second host operation), and writes the same rows of the result. What a step leaves in its block
  is the gate read through that block, every row lies in exactly one step's block, and so the result array ends holding
  the gate of the reshaped input, the reshaped weights and the noise.
-/
import proofs.«151530_j9844065042868_2_alg».proof.Proof.Gen.KernelIdeal.Value
import proofs.«151530_j9844065042868_2_alg».proof.Proof.PatchGate
import proofs.«151530_j9844065042868_2_alg».proof.Proof.BlockGate
import Idealize.ShloMosaic.Lib.Pipeline.Value
import Idealize.ShloMosaic.Lib.StableHlo.Run
import Idealize.ShloMosaic.Lib.ValueIdx

noncomputable section

open scoped BigOperators

namespace Cert.ArrayGate

open Cert.KernelIdeal Cert.KernelIdeal.Gen Cert.PatchGate Cert.BlockGate
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The two reshapes before the grid -/

/-- The grid finds the input reshaped to rows × patches × lanes. -/
theorem rows_entry (c : Dev nD) :
    (V m c main_v0 : S32768x16x256.Idx → EReal)
      = shapeCast S32768x16x256 (m ((c : Thread nD τ).loc main_arg0)) shapeCasts_S32768x1x4096_S32768x16x256 := by
  dsimp only [Gen.V, Gen.hostOps0]; after_results; rfl

/-- The grid finds the weights reshaped to outputs × lanes. -/
theorem weights_entry (c : Dev nD) :
    (V m c main_v1 : S64x256.Idx → EReal)
      = shapeCast S64x256 (m ((c : Thread nD τ).loc main_arg1)) shapeCasts_S64x1x256_S64x256 := by
  dsimp only [Gen.V, Gen.hostOps0]; after_results; rfl

/-! ## One block is the gate read through it -/

/-- A step's block is the gate at an array index, given that the step's three input blocks are the arrays read at the
    matching rows: the input block's row against the array's row for every patch and lane, the weights whole, the noise
    at the same place. -/
theorem block_is_gate (X : S32768x16x256.Idx → EReal) (W : S64x256.Idx → EReal) (N : S32768x64.Idx → EReal)
    (x : Vec Ideal S1024x16x256 .f32) (w : Vec Ideal S64x256 .f32) (n : Vec Ideal S1024x64 .f32)
    (j : S1024x64.Idx) (i : S32768x64.Idx)
    (hx : ∀ (p : Fin 16) (k : Fin 256), x (ix3 (j 0) p k) = X (ix3 (i 0) p k))
    (hw : ∀ k : Fin 256, w (ix2 (j 1) k) = W (ix2 (i 1) k))
    (hn : n j = N i) :
    out0_3 (F := Ideal) x w n j = gate X W N i := by
  obtain ⟨r, o, rfl⟩ : ∃ (r : Fin 1024) (o : Fin 64), j = ix2 r o := ⟨j 0, j 1, eq_ix2 j⟩
  rw [block_apply, hn]
  unfold gate
  refine congrArg (· + N i) (Finset.sum_congr rfl fun k _ => ?_)
  rw [hw k]
  exact congrArg (· * W (ix2 (i 1) k)) (Finset.sum_congr rfl fun p _ => hx p k)

/-- Where each window's block sits at grid step `t`, decided over the 32 steps: the input, the noise and the result move
    with the step along the rows and stay at the origin on the other axes; the weights stay put. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT STEP `t` WRITES BACK is block `t` of the gate of the arrays as the grid finds them. -/
theorem flushed_eq (c : Dev nD) (t : Fin cfg0.N) :
    (dats m 0 c).flushed 3 t
      = ((cfg0.win 3).blk t).view.read (Elt Ideal) (gate (V m c main_v0) (V m c main_v1) (V m c main_arg2)) := by
  rw [Cert.KernelIdeal.Value.flushed3]
  obtain ⟨e00, e01, e02, e10, e11, e20, e21, e30, e31⟩ := block_indices t
  funext j
  refine block_is_gate (V m c main_v0) (V m c main_v1) (V m c main_arg2) (iblk m c 0 t) (iblk m c 1 t) (iblk m c 2 t)
    j (((cfg0.win 3).blk t).view.emb j) ?_ ?_ ?_
  · intro p k
    show V m c main_v0 (((cfg0.win 0).blk t).view.emb (ix3 (j 0) p k)) = V m c main_v0 (ix3 ((((cfg0.win 3).blk t).view.emb j) 0) p k)
    refine congrArg (V m c main_v0) (funext fun a => Fin.ext ?_)
    match a with
    | ⟨0, _⟩ => show win0_0.index t (0 : Fin 3) * 1024 + 1 * (j 0).val = win0_3.index t (0 : Fin 2) * 1024 + 1 * (j 0).val; omega
    | ⟨1, _⟩ => show win0_0.index t (1 : Fin 3) * 16 + 1 * p.val = p.val; omega
    | ⟨2, _⟩ => show win0_0.index t (2 : Fin 3) * 256 + 1 * k.val = k.val; omega
  · intro k
    show V m c main_v1 (((cfg0.win 1).blk t).view.emb (ix2 (j 1) k)) = V m c main_v1 (ix2 ((((cfg0.win 3).blk t).view.emb j) 1) k)
    refine congrArg (V m c main_v1) (funext fun a => Fin.ext ?_)
    match a with
    | ⟨0, _⟩ => show win0_1.index t (0 : Fin 2) * 64 + 1 * (j 1).val = win0_3.index t (1 : Fin 2) * 64 + 1 * (j 1).val; omega
    | ⟨1, _⟩ => show win0_1.index t (1 : Fin 2) * 256 + 1 * k.val = k.val; omega
  · show V m c main_arg2 (((cfg0.win 2).blk t).view.emb j) = V m c main_arg2 (((cfg0.win 3).blk t).view.emb j)
    refine congrArg (V m c main_arg2) (funext fun a => Fin.ext ?_)
    match a with
    | ⟨0, _⟩ => show win0_2.index t (0 : Fin 2) * 1024 + 1 * (j 0).val = win0_3.index t (0 : Fin 2) * 1024 + 1 * (j 0).val; omega
    | ⟨1, _⟩ => show win0_2.index t (1 : Fin 2) * 64 + 1 * (j 1).val = win0_3.index t (1 : Fin 2) * 64 + 1 * (j 1).val; omega

/-! ## The blocks tile the rows -/

/-- An index of the result is in step `t`'s block iff each coordinate is in the block's range on its axis. -/
theorem mem_block (t : Fin cfg0.N) (i : S32768x64.Idx) :
    i ∈ ((cfg0.win 3).blk t).view.set
      ↔ ∀ a : Fin 2, win0_3.index t a * S1024x64.size a ≤ (i a).val ∧ (i a).val < win0_3.index t a * S1024x64.size a + S1024x64.size a := by
  show i ∈ ((View.whole main_v2).slice (win0_3.rect t)).set ↔ _
  rw [View.set_slice_whole, Rect.mem_set_unit]
  exact Iff.rfl

/-- Every index of the result lies in the block of the step that owns its row: step `row / 1024`. -/
theorem covered (i : S32768x64.Idx) :
    ∃ t : Fin cfg0.N, (cfg0.win 3).flush t = true ∧ i ∈ ((cfg0.win 3).blk t).view.set := by
  have h0 : (i 0).val < 32768 := (i 0).isLt
  have h1 : (i 1).val < 64 := (i 1).isLt
  obtain ⟨t, ht⟩ : ∃ t : Fin cfg0.N, t.val = (i 0).val / 1024 :=
    ⟨⟨(i 0).val / 1024, by show _ < grid0.N; rw [N_0]; omega⟩, rfl⟩
  obtain ⟨-, -, -, -, -, -, -, e30, e31⟩ := block_indices t
  refine ⟨t, flush0_3 t, ?_⟩
  rw [mem_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 64 ≤ (i 1).val ∧ (i 1).val < win0_3.index t (1 : Fin 2) * 64 + 64; omega

/-! ## The array, and the run -/

/-- THE RESULT ARRAY after the grid: the gate of the reshaped input, the reshaped weights and the noise. -/
theorem final (c : Dev nD) :
    (dats m 0 c).arrAt 3 cfg0.N
      = gate (shapeCast S32768x16x256 (m ((c : Thread nD τ).loc main_arg0)) shapeCasts_S32768x1x4096_S32768x16x256)
          (shapeCast S64x256 (m ((c : Thread nD τ).loc main_arg1)) shapeCasts_S64x1x256_S64x256)
          (m ((c : Thread nD τ).loc main_arg2)) := by
  rw [← rows_entry m c, ← weights_entry m c, ← V_main_arg2 m c]
  exact (dats m 0 c).arrAt_eq_of_cover 3 _ (fun t _ => flushed_eq m c t) covered

/-- The kernel's run, read: the result array at the gate of the arguments, the arguments unchanged. -/
theorem run : θ_run defs (onTc (τ := τ) (main (F := Ideal))) ⟨m, fun _ => 0, ρ⟩ fun r => ∀ c : Dev nD,
      r.2.mem ((c : Thread nD τ).loc main_v2)
        = gate (shapeCast S32768x16x256 (m ((c : Thread nD τ).loc main_arg0)) shapeCasts_S32768x1x4096_S32768x16x256)
            (shapeCast S64x256 (m ((c : Thread nD τ).loc main_arg1)) shapeCasts_S64x1x256_S64x256)
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.ArrayGate

end
-- ==== Proof.lean ====
/-
  A routing gate: per row, sum the sixteen disjoint 256-lane patches of a 4096-lane input, contract the patch sum with
  64 weight rows, add tie-breaking noise.

  The kernel reshapes the input to rows × patches × lanes and the weights to outputs × lanes, and runs a grid of 32
  steps of 1024 rows each; a step adds its sixteen patch slabs one after the other onto a zero slab, multiplies the
  patch sum with the transposed weights into a zero accumulator, and adds the noise. The reference makes the same two
  reshapes, sums the patch axis from the constant zero, contracts the lanes in one product over all rows, and adds the
  noise. On the extended reals both are the one function

      gate X W N [b, o] = (∑ k, (∑ p, X[b, p, k]) · W[o, k]) + N[b, o]

  of the reshaped input `X`, the reshaped weights `W` and the noise `N` (Proof/PatchGate.lean): the two programs differ
  only in the order the sixteen patches are added and in how the rows are cut into blocks, and addition of extended
  reals is a commutative monoid, so no finiteness of the inputs is used.

  * Proof/ReferenceGate.lean — the reference's result, read at an index, is the gate.
  * Proof/BlockGate.lean — what one grid step leaves in its output block, read at an index.
  * Proof/ArrayGate.lean — the blocks tile the rows, so the result array is the gate; the kernel's run.

  The three frames are the generated ones (the reference's is its generated run with the result dropped); the
  idealization rewrote nothing, so there is nothing to preserve.
-/
import proofs.«151530_j9844065042868_2_alg».proof.Defs
import proofs.«151530_j9844065042868_2_alg».proof.Proof.Gen.Kernel
import proofs.«151530_j9844065042868_2_alg».proof.Proof.Gen.Kernel.Skeleton
import proofs.«151530_j9844065042868_2_alg».proof.Proof.Gen.Kernel.Launch
import proofs.«151530_j9844065042868_2_alg».proof.Proof.Gen.Kernel.Points
import proofs.«151530_j9844065042868_2_alg».proof.Proof.Gen.Kernel.Frame
import proofs.«151530_j9844065042868_2_alg».proof.Proof.Gen.KernelIdeal
import proofs.«151530_j9844065042868_2_alg».proof.Proof.Gen.KernelIdeal.Skeleton
import proofs.«151530_j9844065042868_2_alg».proof.Proof.Gen.KernelIdeal.Launch
import proofs.«151530_j9844065042868_2_alg».proof.Proof.Gen.KernelIdeal.Points
import proofs.«151530_j9844065042868_2_alg».proof.Proof.Gen.KernelIdeal.Frame
import proofs.«151530_j9844065042868_2_alg».proof.Proof.Gen.ReferenceIdeal
import proofs.«151530_j9844065042868_2_alg».proof.Proof.Gen.Pre_finite_inputs
import proofs.«151530_j9844065042868_2_alg».proof.Proof.Gen.KernelIdeal.Value
import proofs.«151530_j9844065042868_2_alg».proof.Proof.Gen.ReferenceIdeal.Run
import proofs.«151530_j9844065042868_2_alg».proof.Proof.Gen.ReferenceIdeal.Read
import proofs.«151530_j9844065042868_2_alg».proof.Proof.PatchGate
import proofs.«151530_j9844065042868_2_alg».proof.Proof.ReferenceGate
import proofs.«151530_j9844065042868_2_alg».proof.Proof.ArrayGate
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments, the kernel's result array ends at the gate of the reshaped input,
    the reshaped weights and the noise, and so does the reference's. -/
theorem algebraic : Cert.algebraic_KernelIdeal_ReferenceIdeal := by
  intro m ρ m' ρ' _ hagree
  refine ⟨_, Cert.ArrayGate.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v4_eq _ _ _).trans (Cert.ReferenceGate.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
